-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x64 : Shape := ⟨2, ![200000, 64]⟩
abbrev S27x64x64 : Shape := ⟨3, ![27, 64, 64]⟩
abbrev S64 : Shape := ⟨1, ![64]⟩
abbrev S27x100000 : Shape := ⟨2, ![27, 100000]⟩
abbrev S_ : Shape := ⟨0, ![]⟩

class Facts : Prop where
  bcast_S_S200000x64 : S_.BroadcastsInDim S200000x64 (![] : Fin 0 → Fin S200000x64.rank)
  reducesTo_S200000x64_S_d0_1 : S200000x64.ReducesTo [0, 1] S_
  h_S_ : 0 < S_.numel
  bcast_S_S27x64x64 : S_.BroadcastsInDim S27x64x64 (![] : Fin 0 → Fin S27x64x64.rank)
  reducesTo_S27x64x64_S_d0_1_2 : S27x64x64.ReducesTo [0, 1, 2] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_arg5 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S200000x64 .f32) (main_arg1 : FVec F S27x64x64 .f32) (main_arg2 : FVec F S64 .f32) (main_arg3 : FVec F S64 .f32) (main_arg4 : FVec F S64 .f32) (main_arg5 : FVec F S64 .f32) (main_arg6 : IVec S27x100000 32) (main_arg7 : IVec S27x100000 32) : IVec S_ 1 :=
  let main_v0 : FVec F S200000x64 .f32 := Host.absf main_arg0
  let main_cst : FVec F S_ .f32 := constant S_ .f32 0x7F800000#32
  let main_v1 : FVec F S200000x64 .f32 := broadcastInDim S200000x64 ![] bcast_S_S200000x64 main_cst
  let main_v2 : IVec S200000x64 1 := cmpf .olt main_v0 main_v1
  let main_c : IVec S_ 1 := constantI S_ 1 1#1
  let main_v3 : IVec S_ 1 := (fun x v => Host.reduce IntOp.andi x v reducesTo_S200000x64_S_d0_1 h_S_) main_v2 main_c
  let main_v4 : FVec F S27x64x64 .f32 := Host.absf main_arg1
  let main_cst_0 : FVec F S_ .f32 := constant S_ .f32 0x7F800000#32
  let main_v5 : FVec F S27x64x64 .f32 := broadcastInDim S27x64x64 ![] bcast_S_S27x64x64 main_cst_0
  let main_v6 : IVec S27x64x64 1 := cmpf .olt main_v4 main_v5
  let main_c_1 : IVec S_ 1 := constantI S_ 1 1#1
  let main_v7 : IVec S_ 1 := (fun x v => Host.reduce IntOp.andi x v reducesTo_S27x64x64_S_d0_1_2 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_v13 main_v16
-- ==== Kernel.lean ====
abbrev S200000x64 : Shape := ⟨2, ![200000, 64]⟩
abbrev S27x64x64 : Shape := ⟨3, ![27, 64, 64]⟩
abbrev S64 : Shape := ⟨1, ![64]⟩
abbrev S27x100000 : Shape := ⟨2, ![27, 100000]⟩
abbrev S_ : Shape := ⟨0, ![]⟩
abbrev S27x100000x1 : Shape := ⟨3, ![27, 100000, 1]⟩
abbrev S27x100000x64 : Shape := ⟨3, ![27, 100000, 64]⟩
abbrev S1x20000x64 : Shape := ⟨3, ![1, 20000, 64]⟩
abbrev S1x64x64 : Shape := ⟨3, ![1, 64, 64]⟩
abbrev S20000x64 : Shape := ⟨2, ![20000, 64]⟩
abbrev S64x64 : Shape := ⟨2, ![64, 64]⟩
abbrev S2700000 : Shape := ⟨1, ![2700000]⟩
abbrev S2700000x64 : Shape := ⟨2, ![2700000, 64]⟩
abbrev S2700000x1 : Shape := ⟨2, ![2700000, 1]⟩
abbrev S1x64 : Shape := ⟨2, ![1, 64]⟩
abbrev S10000x64 : Shape := ⟨2, ![10000, 64]⟩

abbrev nBuf : Space → Nat
  | .hbm => 43
  | .vmem => 12
  | .smem => 0
  | _ => 0

abbrev bufTy : (tb : Table) → Fin (tcTables nBuf tb) → BufTy
  | .hbm, ⟨0, _⟩ => ⟨S200000x64, .f32⟩
  | .hbm, ⟨1, _⟩ => ⟨S27x64x64, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S27x100000, .i32⟩
  | .hbm, ⟨7, _⟩ => ⟨S27x100000, .i32⟩
  | .hbm, ⟨8, _⟩ => ⟨S200000x64, .bf16⟩
  | .hbm, ⟨9, _⟩ => ⟨S_, .i32⟩
  | .hbm, ⟨10, _⟩ => ⟨S27x100000, .i32⟩
  | .hbm, ⟨11, _⟩ => ⟨S27x100000, .i1⟩
  | .hbm, ⟨12, _⟩ => ⟨S_, .i32⟩
  | .hbm, ⟨13, _⟩ => ⟨S27x100000, .i32⟩
  | .hbm, ⟨14, _⟩ => ⟨S27x100000, .i32⟩
  | .hbm, ⟨15, _⟩ => ⟨S27x100000, .i32⟩
  | .hbm, ⟨16, _⟩ => ⟨S27x100000x1, .i32⟩
  | .hbm, ⟨17, _⟩ => ⟨S27x100000x64, .bf16⟩
  | .hbm, ⟨18, _⟩ => ⟨S27x64x64, .bf16⟩
  | .hbm, ⟨19, _⟩ => ⟨S27x100000x64, .f32⟩
  | .hbm, ⟨20, _⟩ => ⟨S_, .f32⟩
  | .hbm, ⟨21, _⟩ => ⟨S200000x64, .f32⟩
  | .hbm, ⟨22, _⟩ => ⟨S2700000, .i32⟩
  | .hbm, ⟨23, _⟩ => ⟨S2700000x64, .f32⟩
  | .hbm, ⟨24, _⟩ => ⟨S_, .i32⟩
  | .hbm, ⟨25, _⟩ => ⟨S2700000, .i32⟩
  | .hbm, ⟨26, _⟩ => ⟨S2700000, .i1⟩
  | .hbm, ⟨27, _⟩ => ⟨S_, .i32⟩
  | .hbm, ⟨28, _⟩ => ⟨S2700000, .i32⟩
  | .hbm, ⟨29, _⟩ => ⟨S2700000, .i32⟩
  | .hbm, ⟨30, _⟩ => ⟨S2700000, .i32⟩
  | .hbm, ⟨31, _⟩ => ⟨S2700000x1, .i32⟩
  | .hbm, ⟨32, _⟩ => ⟨S200000x64, .f32⟩
  | .hbm, ⟨33, _⟩ => ⟨S_, .f32⟩
  | .hbm, ⟨34, _⟩ => ⟨S64, .f32⟩
  | .hbm, ⟨35, _⟩ => ⟨S64, .f32⟩
  | .hbm, ⟨36, _⟩ => ⟨S64, .f32⟩
  | .hbm, ⟨37, _⟩ => ⟨S64, .f32⟩
  | .hbm, ⟨38, _⟩ => ⟨S64, .f32⟩
  | .hbm, ⟨39, _⟩ => ⟨S64, .f32⟩
  | .hbm, ⟨40, _⟩ => ⟨S1x64, .f32⟩
  | .hbm, ⟨41, _⟩ => ⟨S1x64, .f32⟩
  | .hbm, ⟨42, _⟩ => ⟨S200000x64, .f32⟩
  | .local _ .vmem, ⟨0, _⟩ => ⟨S1x20000x64, .bf16⟩
  | .local _ .vmem, ⟨1, _⟩ => ⟨S1x20000x64, .bf16⟩
  | .local _ .vmem, ⟨2, _⟩ => ⟨S1x64x64, .bf16⟩
  | .local _ .vmem, ⟨3, _⟩ => ⟨S1x64x64, .bf16⟩
  | .local _ .vmem, ⟨4, _⟩ => ⟨S1x20000x64, .f32⟩
  | .local _ .vmem, ⟨5, _⟩ => ⟨S1x20000x64, .f32⟩
  | .local _ .vmem, ⟨6, _⟩ => ⟨S10000x64, .f32⟩
  | .local _ .vmem, ⟨7, _⟩ => ⟨S10000x64, .f32⟩
  | .local _ .vmem, ⟨8, _⟩ => ⟨S1x64, .f32⟩
  | .local _ .vmem, ⟨9, _⟩ => ⟨S1x64, .f32⟩
  | .local _ .vmem, ⟨10, _⟩ => ⟨S10000x64, .f32⟩
  | .local _ .vmem, ⟨11, _⟩ => ⟨S10000x64, .f32⟩
  | _, _ => ⟨S200000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c_1 : Ref sig .tc := ⟨.hbm, 24, rfl⟩
abbrev main_v13 : Ref sig .tc := ⟨.hbm, 25, rfl⟩
abbrev main_v14 : Ref sig .tc := ⟨.hbm, 26, rfl⟩
abbrev main_c_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨2, ![27, 5], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x20000x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x20000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bitsLt_bf16_f32 : FTy.bits .bf16 < FTy.bits .f32
  bcast_S_S27x100000 : S_.BroadcastsInDim S27x100000 (![] : Fin 0 → Fin S27x100000.rank)
  bcast_S27x100000_S27x100000x1_0_1 : S27x100000.BroadcastsInDim S27x100000x1 (![0, 1] : Fin 2 → Fin S27x100000x1.rank)
  inb_S1x20000x64_S1x20000x64_0_0_0 : ∀ a, (![0, 0, 0] : Fin 3 → Nat) a + S1x20000x64.size a ≤ S1x20000x64.size a
  h_S1x20000x64 : 0 < S1x20000x64.numel
  shapeCasts_S1x20000x64_S20000x64 : S1x20000x64.ShapeCasts S20000x64
  inb_S1x64x64_S1x64x64_0_0_0 : ∀ a, (![0, 0, 0] : Fin 3 → Nat) a + S1x64x64.size a ≤ S1x64x64.size a
  h_S1x64x64 : 0 < S1x64x64.numel
  shapeCasts_S1x64x64_S64x64 : S1x64x64.ShapeCasts S64x64
  shapeCasts_S20000x64_S1x20000x64 : S20000x64.ShapeCasts S1x20000x64
  bcast_S_S200000x64 : S_.BroadcastsInDim S200000x64 (![] : Fin 0 → Fin S200000x64.rank)
  shapeCasts_S27x100000_S2700000 : S27x100000.ShapeCasts S2700000
  shapeCasts_S27x100000x64_S2700000x64 : S27x100000x64.ShapeCasts S2700000x64
  bcast_S_S2700000 : S_.BroadcastsInDim S2700000 (![] : Fin 0 → Fin S2700000.rank)
  bcast_S2700000_S2700000x1_0 : S2700000.BroadcastsInDim S2700000x1 (![0] : Fin 1 → Fin S2700000x1.rank)
  bcast_S_S64 : S_.BroadcastsInDim S64 (![] : Fin 0 → Fin S64.rank)
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  gather_S200000x64_S27x100000x1_S27x100000x64_2_0_n_n_0_2_164_wf : GatherDims.WF S200000x64 S27x100000x1 S27x100000x64 [2] [0] [] [0] [] 2 ![1, 64]
  dot_S20000x64_S64x64_S20000x64_1_0_0_1_n_n_wf : DotDims.WF S20000x64 S64x64 S20000x64 [1] [0] [0] [1] [] []
  scatter_S200000x64_S2700000x1_S2700000x64_1_0_0_1_wf : ScatterDims.WF S200000x64 S2700000x1 S2700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x20000x64.size a ≤ S27x100000x64.size a
  hwx0_0 : ∀ i : grid0.Coords, EltTy.bits .bf16 = 32 ∨ (Rect.block (s := S27x100000x64) S1x20000x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x64.size a ≤ S27x64x64.size a
  hwx0_1 : ∀ i : grid0.Coords, EltTy.bits .bf16 = 32 ∨ (Rect.block (s := S27x64x64) S1x64x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x20000x64.size a ≤ S27x100000x64.size a
  hwx0_2 : ∀ i : grid0.Coords, EltTy.bits .f32 = 32 ∨ (Rect.block (s := S27x100000x64) S1x20000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S200000x64.size a
  hwx1_0 : ∀ i : grid1.Coords, EltTy.bits .f32 = 32 ∨ (Rect.block (s := S200000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S200000x64.size a
  hwx1_3 : ∀ i : grid1.Coords, EltTy.bits .f32 = 32 ∨ (Rect.block (s := S200000x64) S10000x64.size (cc1_transform_3 i) (hinb1_3 i)).WholeWords (EltTy.packing .f32)

variable [Facts₀]

def gather_S200000x64_S27x100000x1_S27x100000x64_2_0_n_n_0_2_164 : GatherDims S200000x64 S27x100000x1 S27x100000x64 where
  offsetDims := [2]
  collapsedSliceDims := [0]
  operandBatchingDims := []
  startIndicesBatchingDims := []
  startIndexMap := [0]
  indexVectorDim := 2
  sliceSizes := ![1, 64]
  wf := gather_S200000x64_S27x100000x1_S27x100000x64_2_0_n_n_0_2_164_wf
def dot_S20000x64_S64x64_S20000x64_1_0_0_1_n_n : DotDims S20000x64 S64x64 S20000x64 where
  lhsContracting := [1]
  rhsContracting := [0]
  lhsNonContracting := [0]
  rhsNonContracting := [1]
  lhsBatch := []
  rhsBatch := []
  wf := dot_S20000x64_S64x64_S20000x64_1_0_0_1_n_n_wf
def scatter_S200000x64_S2700000x1_S2700000x64_1_0_0_1 : ScatterDims S200000x64 S2700000x1 S2700000x64 where
  updateWindowDims := [1]
  insertedWindowDims := [0]
  scatterDimsToOperandDims := [0]
  indexVectorDim := 1
  wf := scatter_S200000x64_S2700000x1_S2700000x64_1_0_0_1_wf

abbrev win0_0 : Pipeline.Window sig grid0 :=
  Pipeline.Window.ofSpec (Memref.whole main_v7) S1x20000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1x64x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x20000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v19) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v28) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S200000x64 : Shape := ⟨2, ![200000, 64]⟩
abbrev S27x64x64 : Shape := ⟨3, ![27, 64, 64]⟩
abbrev S64 : Shape := ⟨1, ![64]⟩
abbrev S27x100000 : Shape := ⟨2, ![27, 100000]⟩
abbrev S_ : Shape := ⟨0, ![]⟩
abbrev S27x100000x1 : Shape := ⟨3, ![27, 100000, 1]⟩
abbrev S27x100000x64 : Shape := ⟨3, ![27, 100000, 64]⟩
abbrev S2700000 : Shape := ⟨1, ![2700000]⟩
abbrev S2700000x64 : Shape := ⟨2, ![2700000, 64]⟩
abbrev S2700000x1 : Shape := ⟨2, ![2700000, 1]⟩
abbrev S1x64 : Shape := ⟨2, ![1, 64]⟩

abbrev nBuf : Space → Nat
  | .hbm => 47
  | .vmem => 0
  | .smem => 0
  | _ => 0

abbrev bufTy : (tb : Table) → Fin (tcTables nBuf tb) → BufTy
  | .hbm, ⟨0, _⟩ => ⟨S200000x64, .f32⟩
  | .hbm, ⟨1, _⟩ => ⟨S27x64x64, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S27x100000, .i32⟩
  | .hbm, ⟨7, _⟩ => ⟨S27x100000, .i32⟩
  | .hbm, ⟨8, _⟩ => ⟨S_, .i32⟩
  | .hbm, ⟨9, _⟩ => ⟨S27x100000, .i32⟩
  | .hbm, ⟨10, _⟩ => ⟨S27x100000, .i1⟩
  | .hbm, ⟨11, _⟩ => ⟨S_, .i32⟩
  | .hbm, ⟨12, _⟩ => ⟨S27x100000, .i32⟩
  | .hbm, ⟨13, _⟩ => ⟨S27x100000, .i32⟩
  | .hbm, ⟨14, _⟩ => ⟨S27x100000, .i32⟩
  | .hbm, ⟨15, _⟩ => ⟨S27x100000x1, .i32⟩
  | .hbm, ⟨16, _⟩ => ⟨S27x100000x64, .f32⟩
  | .hbm, ⟨17, _⟩ => ⟨S27x100000x64, .f32⟩
  | .hbm, ⟨18, _⟩ => ⟨S_, .f32⟩
  | .hbm, ⟨19, _⟩ => ⟨S200000x64, .f32⟩
  | .hbm, ⟨20, _⟩ => ⟨S2700000, .i32⟩
  | .hbm, ⟨21, _⟩ => ⟨S2700000x64, .f32⟩
  | .hbm, ⟨22, _⟩ => ⟨S_, .i32⟩
  | .hbm, ⟨23, _⟩ => ⟨S2700000, .i32⟩
  | .hbm, ⟨24, _⟩ => ⟨S2700000, .i1⟩
  | .hbm, ⟨25, _⟩ => ⟨S_, .i32⟩
  | .hbm, ⟨26, _⟩ => ⟨S2700000, .i32⟩
  | .hbm, ⟨27, _⟩ => ⟨S2700000, .i32⟩
  | .hbm, ⟨28, _⟩ => ⟨S2700000, .i32⟩
  | .hbm, ⟨29, _⟩ => ⟨S2700000x1, .i32⟩
  | .hbm, ⟨30, _⟩ => ⟨S200000x64, .f32⟩
  | .hbm, ⟨31, _⟩ => ⟨S_, .f32⟩
  | .hbm, ⟨32, _⟩ => ⟨S64, .f32⟩
  | .hbm, ⟨33, _⟩ => ⟨S64, .f32⟩
  | .hbm, ⟨34, _⟩ => ⟨S64, .f32⟩
  | .hbm, ⟨35, _⟩ => ⟨S64, .f32⟩
  | .hbm, ⟨36, _⟩ => ⟨S1x64, .f32⟩
  | .hbm, ⟨37, _⟩ => ⟨S200000x64, .f32⟩
  | .hbm, ⟨38, _⟩ => ⟨S200000x64, .f32⟩
  | .hbm, ⟨39, _⟩ => ⟨S64, .f32⟩
  | .hbm, ⟨40, _⟩ => ⟨S64, .f32⟩
  | .hbm, ⟨41, _⟩ => ⟨S1x64, .f32⟩
  | .hbm, ⟨42, _⟩ => ⟨S200000x64, .f32⟩
  | .hbm, ⟨43, _⟩ => ⟨S200000x64, .f32⟩
  | .hbm, ⟨44, _⟩ => ⟨S_, .f32⟩
  | .hbm, ⟨45, _⟩ => ⟨S200000x64, .f32⟩
  | .hbm, ⟨46, _⟩ => ⟨S200000x64, .f32⟩
  | _, _ => ⟨S200000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_call0_cst : Ref sig .tc := ⟨.hbm, 44, rfl⟩
abbrev main_call0_v0 : Ref sig .tc := ⟨.hbm, 45, rfl⟩
abbrev main_v30 : Ref sig .tc := ⟨.hbm, 46, rfl⟩

abbrev nD : Nat := 1
abbrev τ : Topo := Topo.v7x

variable {F : FTy → Type} [FloatOps F]

class Facts₀ : Prop where
  bcast_S_S27x100000 : S_.BroadcastsInDim S27x100000 (![] : Fin 0 → Fin S27x100000.rank)
  bcast_S27x100000_S27x100000x1_0_1 : S27x100000.BroadcastsInDim S27x100000x1 (![0, 1] : Fin 2 → Fin S27x100000x1.rank)
  bcast_S_S200000x64 : S_.BroadcastsInDim S200000x64 (![] : Fin 0 → Fin S200000x64.rank)
  shapeCasts_S27x100000_S2700000 : S27x100000.ShapeCasts S2700000
  shapeCasts_S27x100000x64_S2700000x64 : S27x100000x64.ShapeCasts S2700000x64
  bcast_S_S2700000 : S_.BroadcastsInDim S2700000 (![] : Fin 0 → Fin S2700000.rank)
  bcast_S2700000_S2700000x1_0 : S2700000.BroadcastsInDim S2700000x1 (![0] : Fin 1 → Fin S2700000x1.rank)
  bcast_S_S64 : S_.BroadcastsInDim S64 (![] : Fin 0 → Fin S64.rank)
  bcast_S64_S1x64_1 : S64.BroadcastsInDim S1x64 (![1] : Fin 1 → Fin S1x64.rank)
  bcast_S1x64_S200000x64_0_1 : S1x64.BroadcastsInDim S200000x64 (![0, 1] : Fin 2 → Fin S200000x64.rank)
  gather_S200000x64_S27x100000x1_S27x100000x64_2_0_n_n_0_2_164_wf : GatherDims.WF S200000x64 S27x100000x1 S27x100000x64 [2] [0] [] [0] [] 2 ![1, 64]
  dot_S27x100000x64_S27x64x64_S27x100000x64_2_1_1_2_0_0_wf : DotDims.WF S27x100000x64 S27x64x64 S27x100000x64 [2] [1] [1] [2] [0] [0]
  scatter_S200000x64_S2700000x1_S2700000x64_1_0_0_1_wf : ScatterDims.WF S200000x64 S2700000x1 S2700000x64 [1] [0] [0] 1

variable [Facts₀]

def gather_S200000x64_S27x100000x1_S27x100000x64_2_0_n_n_0_2_164 : GatherDims S200000x64 S27x100000x1 S27x100000x64 where
  offsetDims := [2]
  collapsedSliceDims := [0]
  operandBatchingDims := []
  startIndicesBatchingDims := []
  startIndexMap := [0]
  indexVectorDim := 2
  sliceSizes := ![1, 64]
  wf := gather_S200000x64_S27x100000x1_S27x100000x64_2_0_n_n_0_2_164_wf
def dot_S27x100000x64_S27x64x64_S27x100000x64_2_1_1_2_0_0 : DotDims S27x100000x64 S27x64x64 S27x100000x64 where
  lhsContracting := [2]
  rhsContracting := [1]
  lhsNonContracting := [1]
  rhsNonContracting := [2]
  lhsBatch := [0]
  rhsBatch := [0]
  wf := dot_S27x100000x64_S27x64x64_S27x100000x64_2_1_1_2_0_0_wf
def scatter_S200000x64_S2700000x1_S2700000x64_1_0_0_1 : ScatterDims S200000x64 S2700000x1 S2700000x64 where
  updateWindowDims := [1]
  insertedWindowDims := [0]
  scatterDimsToOperandDims := [0]
  indexVectorDim := 1
  wf := scatter_S200000x64_S2700000x1_S2700000x64_1_0_0_1_wf

class Facts : Prop extends Facts₀ where

variable [Facts]
-- ==== Proof.KernelRun.lean ====
/-
  The idealized kernel's run with its result NAMED.

  @main is four segments: host operations, the matmul region, host operations, the batch-norm region.
  The generated frame walks the memory through them: `W1` after the first host stretch, `W2` after
  the matmul region (its output array at what the grid points wrote back), `W3` after the second
  stretch, `W4` after the second region.  Here the same walk is re-posted keeping, beside the unchanged
  arguments, what the result buffer `main_v28` holds at the end: `W4` read at that buffer.
-/
import proofs.«168406_j75462575391265_1_alg».proof.Proof.Gen.KernelIdeal.Frame

set_option maxRecDepth 16384

noncomputable section

namespace Cert.KernelIdeal.RunV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last
    boundary's contents `W4` and every argument as launched. -/
theorem run : θ_run defs (onTc (τ := τ) (main (F := F))) ⟨m, fun _ => 0, ρ⟩ (fun r => ∀ c : Dev nD,
      r.2.mem ((c.tc : Thread nD τ).loc main_v28) = W4 m ρ c (Proc.devRef .tc main_v28)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v28 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.RunV

end
-- ==== Proof.Epilogue.lean ====
/-
  The second region (batch norm folded to a scale and a shift, then ReLU), as ONE function of the arrays it finds.

  The grid has 20 points; point `t` reads rows `10000·t … 10000·t + 9999` of the [200000, 64] input, the whole
  [1, 64] scale and the whole [1, 64] shift, and writes the same rows of the output.  At row `r`, channel `o` it
  stores `max (x r o · scale 0 o + shift 0 o) 0`.  The 20 row blocks tile the output array, so after the region the
  array holds that function at every index.
-/
import proofs.«168406_j75462575391265_1_alg».proof.Proof.Gen.KernelIdeal.Frame
import Idealize.ShloMosaic.Lib.Pipeline.Value
import Idealize.ShloMosaic.Lib.ValueIdx
import Idealize.ShloMosaic.Lib.ValueLayout

noncomputable section

namespace Cert.KernelIdeal.Epilogue

open Cert.KernelIdeal Cert.KernelIdeal.Gen Idealize.ShloMosaic Idealize.ShloMosaic.TcCoe Idealize.SL.Sem
open Idealize.ShloMosaic.Pipeline (Dat)
open Idealize.ShloMosaic.ValueIdx

/-- Scale, shift and clamp at zero, at row `r` and channel `o`. -/
def bnReluAt (x : S200000x64.Idx → EReal) (s b : S1x64.Idx → EReal) (r : Fin 200000) (o : Fin 64) : EReal :=
  max (x (ix2 r o) * s (ix2 (0 : Fin 1) o) + b (ix2 (0 : Fin 1) o)) (Ideal.ofBits .f32 0x00000000#32)

/-- The same as a whole array. -/
def bnRelu (x : S200000x64.Idx → EReal) (s b : S1x64.Idx → EReal) : S200000x64.Idx → EReal :=
  fun i => bnReluAt x s b (i 0) (i 1)

/-- What the body stores at row `p` of its block, channel `o`: the loaded row times the one scale row plus the one
    shift row, clamped at zero. -/
theorem pay_apply (x0 : Vec Ideal S10000x64 .f32) (x1 x2 : Vec Ideal S1x64 .f32) (p : Fin 10000) (o : Fin 64) :
    k1_pay1 x0 x1 x2 (ix2 p o)
      = max (x0 (ix2 p o) * x1 (ix2 (0 : Fin 1) o) + x2 (ix2 (0 : Fin 1) o)) (Ideal.ofBits .f32 0x00000000#32) := by
  unfold k1_pay1
  simp only [maximumf_apply, addf_apply, mulf_apply, shapeCast_self, broadcastTo_1b_ab_apply, broadcast_apply]
  rfl

/-- The same, read at any index `j` of the block and set against any index `i` of the array with the same channel:
    if the loaded row entry is the array's entry at `i`, and the loaded scale and shift are the arrays', the stored
    entry is the whole-array function at `i`. -/
theorem pay_eq_bnRelu (A : S200000x64.Idx → EReal) (s b : S1x64.Idx → EReal)
    (x0 : Vec Ideal S10000x64 .f32) (x1 x2 : Vec Ideal S1x64 .f32) (j : S10000x64.Idx) (i : S200000x64.Idx)
    (h0 : x0 j = A i) (hcol : (i 1).val = (j 1).val) (h1 : x1 = s) (h2 : x2 = b) :
    k1_pay1 x0 x1 x2 j = bnRelu A s b i := by
  subst h1 h2
  obtain ⟨p, o, rfl⟩ : ∃ (p : Fin 10000) (o : Fin 64), j = ix2 p o := ⟨j 0, j 1, eq_ix2 j⟩
  obtain ⟨r, o', rfl⟩ : ∃ (r : Fin 200000) (o' : Fin 64), i = ix2 r o' := ⟨i 0, i 1, eq_ix2 i⟩
  have ho : o' = o := Fin.ext hcol
  subst ho
  rw [pay_apply, h0]
  rfl

section Region
variable (V : (c : Dev nD) → (b : Ref sig .tc) → Buf (Elt Ideal) ((c : Thread nD τ).loc b))

theorem hz : (![0, 0] : Fin 2 → Nat) = fun _ => 0 := funext fun a => by fin_cases a <;> rfl

/-- The printed index maps over the 20 grid points: the input's row block is the output's, the scale and the shift
    stay at their one block, and the output's row block index is below 20. -/
theorem idx_facts : ∀ t : Fin cfg1.N, win1_0.index t (0 : Fin 2) = win1_3.index t (0 : Fin 2)
    ∧ win1_0.index t (1 : Fin 2) = 0 ∧ win1_3.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) ≤ 19 :=
  (by decide +kernel : ∀ t : Fin grid1.N, _)

/-- Every row block is some point's. -/
theorem idx_onto : ∀ q : Fin 20, ∃ t : Fin cfg1.N, win1_3.index t = ![q.val, 0] :=
  (by decide +kernel : ∀ q : Fin 20, ∃ t : Fin grid1.N, win1_3.index t = ![q.val, 0])

/-- What point `t` writes back is its row block of the whole-array function of the arrays the region finds. -/
theorem flushed_eq (c : Dev nD) (t : Fin cfg1.N) :
    (dat1 V c).flushed 3 t
      = ((cfg1.win 3).blk t).view.read (Elt Ideal) (bnRelu (V c main_v19) (V c main_v26) (V c main_v27)) := by
  show (cfg1.win 3).cut (grid1.coords t) ((dat1 V c).after 3 t) = _
  rw [after1_3]
  unfold out1_3
  rw [View.canon_unit_zero hz]
  simp only [View.ld_unit_zero (S := S10000x64) hz, View.ld_unit_zero (S := S1x64) hz]
  obtain ⟨e0, e1, e2, e3, e4, e5, e6, e7⟩ := idx_facts t
  funext j
  refine pay_eq_bnRelu (V c main_v19) (V c main_v26) (V c main_v27) _ _ _ j (((cfg1.win 3).blk t).view.emb j) ?_ ?_ ?_ ?_
  · show V c main_v19 (((cfg1.win 0).blk t).view.emb j) = V c main_v19 (((cfg1.win 3).blk t).view.emb j)
    refine congrArg (V c main_v19) (funext fun a => Fin.ext ?_)
    match a with
    | ⟨0, _⟩ => show win1_0.index t (0 : Fin 2) * 10000 + 1 * (j 0).val = win1_3.index t (0 : Fin 2) * 10000 + 1 * (j 0).val; omega
    | ⟨1, _⟩ => show win1_0.index t (1 : Fin 2) * 64 + 1 * (j 1).val = win1_3.index t (1 : Fin 2) * 64 + 1 * (j 1).val; omega
  · show win1_3.index t (1 : Fin 2) * 64 + 1 * (j 1).val = (j 1).val
    omega
  · funext y
    show V c main_v26 (((cfg1.win 1).blk t).view.emb y) = V c main_v26 y
    refine congrArg (V c main_v26) (funext fun a => Fin.ext ?_)
    match a with
    | ⟨0, _⟩ => show win1_1.index t (0 : Fin 2) * 1 + 1 * (y 0).val = (y 0).val; omega
    | ⟨1, _⟩ => show win1_1.index t (1 : Fin 2) * 64 + 1 * (y 1).val = (y 1).val; omega
  · funext y
    show V c main_v27 (((cfg1.win 2).blk t).view.emb y) = V c main_v27 y
    refine congrArg (V c main_v27) (funext fun a => Fin.ext ?_)
    match a with
    | ⟨0, _⟩ => show win1_2.index t (0 : Fin 2) * 1 + 1 * (y 0).val = (y 0).val; omega
    | ⟨1, _⟩ => show win1_2.index t (1 : Fin 2) * 64 + 1 * (y 1).val = (y 1).val; omega

/-- An index of the output array is in point `t`'s block iff each coordinate is in the block's range on its axis. -/
theorem mem_blk (t : Fin cfg1.N) (i : S200000x64.Idx) :
    i ∈ ((cfg1.win 3).blk t).view.set ↔ ∀ a : Fin 2, win1_3.index t a * S10000x64.size a ≤ (i a).val ∧ (i a).val < win1_3.index t a * S10000x64.size a + S10000x64.size a := by
  show i ∈ ((View.whole main_v28).slice (win1_3.rect t)).set ↔ _
  rw [View.set_slice_whole, Rect.mem_set_unit]
  exact Iff.rfl

/-- Row `r` lies in the block of the point whose row block index is `r / 10000`: the 20 blocks tile the array. -/
theorem cover (i : S200000x64.Idx) : ∃ t : Fin cfg1.N, (cfg1.win 3).flush t = true ∧ i ∈ ((cfg1.win 3).blk t).view.set := by
  have hi0 : (i 0).val < 200000 := (i 0).isLt
  have hi1 : (i 1).val < 64 := (i 1).isLt
  obtain ⟨t, ht⟩ := idx_onto ⟨(i 0).val / 10000, by omega⟩
  have q0 : win1_3.index t (0 : Fin 2) = (i 0).val / 10000 := congrFun ht 0
  have q1 : win1_3.index t (1 : Fin 2) = 0 := congrFun ht 1
  refine ⟨t, flush1_3 t, ?_⟩
  rw [mem_blk]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 64 ≤ (i 1).val ∧ (i 1).val < win1_3.index t (1 : Fin 2) * 64 + 64; omega

/-- After the region its output array is the whole-array function of the arrays it found. -/
theorem final (c : Dev nD) :
    (dat1 V c).arrAt 3 cfg1.N = bnRelu (V c main_v19) (V c main_v26) (V c main_v27) :=
  (dat1 V c).arrAt_eq_of_cover 3 (bnRelu (V c main_v19) (V c main_v26) (V c main_v27))
    (fun t _ => flushed_eq V c t) cover

end Region

end Cert.KernelIdeal.Epilogue

end
-- ==== Proof.Conv.lean ====
/-
  The first region (the per-offset matrix products), as ONE function of the arrays it finds.

  The grid is 27 × 5: point `(a, q)` reads rows `20000·q … 20000·q + 19999` of offset `a` of the gathered
  features [27, 100000, 64], the whole [64, 64] matrix of offset `a`, multiplies them into a zero accumulator and
  writes the same rows of offset `a` of the output.  At offset `a`, row `p`, output channel `o` the stored entry is
  `∑ k, gathered a p k · weight a k o`.  The 135 blocks tile the output array, so after the region the array holds that
  sum at every index.
-/
import proofs.«168406_j75462575391265_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Conv

open Cert.KernelIdeal Cert.KernelIdeal.Gen Idealize.ShloMosaic Idealize.ShloMosaic.TcCoe Idealize.SL.Sem
open Idealize.ShloMosaic.Pipeline (Dat)
open Idealize.ShloMosaic.ValueIdx

/-- Offset `a`, row `p`, output channel `o`: the row of gathered features against the column of the offset's matrix. -/
def convAt (g : S27x100000x64.Idx → EReal) (w : S27x64x64.Idx → EReal) (a : Fin 27) (p : Fin 100000) (o : Fin 64) : EReal :=
  ∑ k : Fin 64, g (ix3 a p k) * w (ix3 a k o)

/-- The same as a whole array. -/
def conv (g : S27x100000x64.Idx → EReal) (w : S27x64x64.Idx → EReal) : S27x100000x64.Idx → EReal :=
  fun i => convAt g w (i 0) (i 1) (i 2)

/-! ## The block product at an index -/

theorem lhs_0 (i : S20000x64.Idx) (q : dot_S20000x64_S64x64_S20000x64_1_0_0_1_n_n.contr.Idx) :
    (dot_S20000x64_S64x64_S20000x64_1_0_0_1_n_n.lhsIdx i q 0).val = (i 0).val := by
  unfold DotDims.lhsIdx
  rw [dif_neg (show ¬(0 : Fin S20000x64.rank) ∈ dot_S20000x64_S64x64_S20000x64_1_0_0_1_n_n.lhsBatch by decide), dif_pos (show (0 : Fin S20000x64.rank) ∈ dot_S20000x64_S64x64_S20000x64_1_0_0_1_n_n.lhsNonContracting by decide)]
  rfl
theorem lhs_1 (i : S20000x64.Idx) (q : dot_S20000x64_S64x64_S20000x64_1_0_0_1_n_n.contr.Idx) :
    (dot_S20000x64_S64x64_S20000x64_1_0_0_1_n_n.lhsIdx i q 1).val = (q ⟨0, by decide⟩).val :=
  dot_S20000x64_S64x64_S20000x64_1_0_0_1_n_n.lhsIdx_val_of_single rfl i q
theorem rhs_0 (i : S20000x64.Idx) (q : dot_S20000x64_S64x64_S20000x64_1_0_0_1_n_n.contr.Idx) :
    (dot_S20000x64_S64x64_S20000x64_1_0_0_1_n_n.rhsIdx i q 0).val = (q ⟨0, by decide⟩).val :=
  dot_S20000x64_S64x64_S20000x64_1_0_0_1_n_n.rhsIdx_val_of_single rfl i q
theorem rhs_1 (i : S20000x64.Idx) (q : dot_S20000x64_S64x64_S20000x64_1_0_0_1_n_n.contr.Idx) :
    (dot_S20000x64_S64x64_S20000x64_1_0_0_1_n_n.rhsIdx i q 1).val = (i 1).val := by
  unfold DotDims.rhsIdx
  rw [dif_neg (show ¬(1 : Fin S64x64.rank) ∈ dot_S20000x64_S64x64_S20000x64_1_0_0_1_n_n.rhsBatch by decide), dif_pos (show (1 : Fin S64x64.rank) ∈ dot_S20000x64_S64x64_S20000x64_1_0_0_1_n_n.rhsNonContracting by decide)]
  rfl

/-- A [20000, 64] × [64, 64] product into the zero accumulator, at row `p` and column `o`, is the sum over the shared
    axis. -/
theorem matmul_at (l : FVec Ideal S20000x64 .bf16) (r : FVec Ideal S64x64 .bf16) (p : Fin 20000) (o : Fin 64) :
    matmul dot_S20000x64_S64x64_S20000x64_1_0_0_1_n_n none l r (constant S20000x64 .f32 0x00000000#32) (ix2 p o)
      = ∑ k : Fin 64, l (ix2 p k) * r (ix2 k o) := by
  refine (Ideal.matmul_constant_zero_apply dot_S20000x64_S64x64_S20000x64_1_0_0_1_n_n none l r (ix2 p o)).trans ?_
  rw [← Equiv.sum_comp (contrEquiv1 dot_S20000x64_S64x64_S20000x64_1_0_0_1_n_n 64 rfl rfl).symm]
  refine Finset.sum_congr rfl fun k _ => ?_
  have hk := contrEquiv1_symm_val dot_S20000x64_S64x64_S20000x64_1_0_0_1_n_n 64 rfl rfl k
  have el : dot_S20000x64_S64x64_S20000x64_1_0_0_1_n_n.lhsIdx (ix2 p o) ((contrEquiv1 dot_S20000x64_S64x64_S20000x64_1_0_0_1_n_n 64 rfl rfl).symm k) = ix2 p k := funext fun a => Fin.ext (by
    match a with
    | ⟨0, _⟩ => exact lhs_0 _ _
    | ⟨1, _⟩ => exact (lhs_1 _ _).trans hk)
  have er : dot_S20000x64_S64x64_S20000x64_1_0_0_1_n_n.rhsIdx (ix2 p o) ((contrEquiv1 dot_S20000x64_S64x64_S20000x64_1_0_0_1_n_n 64 rfl rfl).symm k) = ix2 k o := funext fun a => Fin.ext (by
    match a with
    | ⟨0, _⟩ => exact (rhs_0 _ _).trans hk
    | ⟨1, _⟩ => exact rhs_1 _ _)
  rw [el, er]

/-- What the body stores at row `p`, channel `o` of its [1, 20000, 64] block: the loaded row against the loaded
    column. -/
theorem pay_apply (x0 : Vec Ideal S1x20000x64 .bf16) (x1 : Vec Ideal S1x64x64 .bf16) (u : Fin 1) (p : Fin 20000) (o : Fin 64) :
    k0_pay1 x0 x1 (ix3 u p o) = ∑ k : Fin 64, x0 (ix3 (0 : Fin 1) p k) * x1 (ix3 (0 : Fin 1) k o) := by
  unfold k0_pay1
  rw [shapeCast_ab_1ab_apply, matmul_at]
  refine Finset.sum_congr rfl fun k _ => ?_
  rw [shapeCast_1ab_ab_apply, shapeCast_1ab_ab_apply]

/-- The same, read at any index `j` of the block and set against the index `(a, r, o)` of the array it lands on: if
    row `j 1` of the loaded features is row `r` of offset `a` of the array, and the loaded matrix is offset `a`'s, the
    stored entry is the whole-array sum at `(a, r, o)`. -/
theorem pay_eq_conv (G : S27x100000x64.Idx → EReal) (Wt : S27x64x64.Idx → EReal)
    (x0 : Vec Ideal S1x20000x64 .bf16) (x1 : Vec Ideal S1x64x64 .bf16) (j : S1x20000x64.Idx)
    (a : Fin 27) (r : Fin 100000) (o : Fin 64) (hcol : (j 2).val = o.val)
    (h0 : ∀ (p : Fin 20000) (k : Fin 64), p.val = (j 1).val → x0 (ix3 (0 : Fin 1) p k) = G (ix3 a r k))
    (h1 : ∀ k o' : Fin 64, x1 (ix3 (0 : Fin 1) k o') = Wt (ix3 a k o')) :
    k0_pay1 x0 x1 j = convAt G Wt a r o := by
  obtain ⟨u, p, o', rfl⟩ : ∃ (u : Fin 1) (p : Fin 20000) (o' : Fin 64), j = ix3 u p o' := ⟨j 0, j 1, j 2, eq_ix3 j⟩
  have ho : o' = o := Fin.ext hcol
  subst ho
  rw [pay_apply]
  unfold convAt
  refine Finset.sum_congr rfl fun k _ => ?_
  rw [h0 p k rfl, h1 k o']

section Region
variable (V : (c : Dev nD) → (b : Ref sig .tc) → Buf (Elt Ideal) ((c : Thread nD τ).loc b))

theorem hz : (![0, 0, 0] : Fin 3 → Nat) = fun _ => 0 := funext fun a => by fin_cases a <;> rfl

/-- The printed index maps over the 135 grid points: the features' block is the output's on the offset and row axes,
    the matrix is the output's offset's, whole; the output's offset index is below 27 and its row block index below 5. -/
theorem idx_facts : ∀ t : Fin cfg0.N, win0_0.index t (0 : Fin 3) = win0_2.index t (0 : Fin 3)
    ∧ win0_0.index t (1 : Fin 3) = win0_2.index t (1 : Fin 3)
    ∧ win0_0.index t (2 : Fin 3) = 0 ∧ win0_2.index t (2 : Fin 3) = 0
    ∧ win0_1.index t (0 : Fin 3) = win0_2.index t (0 : Fin 3)
    ∧ win0_1.index t (1 : Fin 3) = 0 ∧ win0_1.index t (2 : Fin 3) = 0
    ∧ win0_2.index t (0 : Fin 3) ≤ 26 ∧ win0_2.index t (1 : Fin 3) ≤ 4 :=
  (by decide +kernel : ∀ t : Fin grid0.N, _)

/-- Every (offset, row block) pair is some point's. -/
theorem idx_onto : ∀ (q0 : Fin 27) (q1 : Fin 5), ∃ t : Fin cfg0.N, win0_2.index t = ![q0.val, q1.val, 0] :=
  (by decide +kernel : ∀ (q0 : Fin 27) (q1 : Fin 5), ∃ t : Fin grid0.N, win0_2.index t = ![q0.val, q1.val, 0])

/-- What point `t` writes back is its block of the whole-array sums of the arrays the region finds. -/
theorem flushed_eq (c : Dev nD) (t : Fin cfg0.N) :
    (dat0 V c).flushed 2 t
      = ((cfg0.win 2).blk t).view.read (Elt Ideal) (conv (V c main_v7) (V c main_v8)) := by
  show (cfg0.win 2).cut (grid0.coords t) ((dat0 V c).after 2 t) = _
  rw [after0_2]
  unfold out0_2
  rw [View.canon_unit_zero hz]
  simp only [View.ld_unit_zero (S := S1x20000x64) hz, View.ld_unit_zero (S := S1x64x64) hz]
  obtain ⟨e0, e1, e2, e3, e4, e5, e6, e7, e8⟩ := idx_facts t
  funext j
  have hj0 : (j 0).val < 1 := (j 0).isLt
  have hj1 : (j 1).val < 20000 := (j 1).isLt
  have hj2 : (j 2).val < 64 := (j 2).isLt
  show k0_pay1 (iblk0 V c 0 t) (iblk0 V c 1 t) j
    = convAt (V c main_v7) (V c main_v8)
        ⟨win0_2.index t (0 : Fin 3) * 1 + 1 * (j 0).val, by show _ < 27; omega⟩
        ⟨win0_2.index t (1 : Fin 3) * 20000 + 1 * (j 1).val, by show _ < 100000; omega⟩
        ⟨win0_2.index t (2 : Fin 3) * 64 + 1 * (j 2).val, by show _ < 64; omega⟩
  refine pay_eq_conv (V c main_v7) (V c main_v8) _ _ j _ _ _ (by show (j 2).val = win0_2.index t (2 : Fin 3) * 64 + 1 * (j 2).val; omega) ?_ ?_
  · intro p k hp
    show V c main_v7 (((cfg0.win 0).blk t).view.emb (ix3 (0 : Fin 1) p k)) = V c main_v7 _
    refine congrArg (V c main_v7) (funext fun a => Fin.ext ?_)
    match a with
    | ⟨0, _⟩ => show win0_0.index t (0 : Fin 3) * 1 + 1 * 0 = win0_2.index t (0 : Fin 3) * 1 + 1 * (j 0).val; omega
    | ⟨1, _⟩ => show win0_0.index t (1 : Fin 3) * 20000 + 1 * p.val = win0_2.index t (1 : Fin 3) * 20000 + 1 * (j 1).val; omega
    | ⟨2, _⟩ => show win0_0.index t (2 : Fin 3) * 64 + 1 * k.val = k.val; omega
  · intro k o'
    show V c main_v8 (((cfg0.win 1).blk t).view.emb (ix3 (0 : Fin 1) k o')) = V c main_v8 _
    refine congrArg (V c main_v8) (funext fun a => Fin.ext ?_)
    match a with
    | ⟨0, _⟩ => show win0_1.index t (0 : Fin 3) * 1 + 1 * 0 = win0_2.index t (0 : Fin 3) * 1 + 1 * (j 0).val; omega
    | ⟨1, _⟩ => show win0_1.index t (1 : Fin 3) * 64 + 1 * k.val = k.val; omega
    | ⟨2, _⟩ => show win0_1.index t (2 : Fin 3) * 64 + 1 * o'.val = o'.val; omega

/-- An index of the output array is in point `t`'s block iff each coordinate is in the block's range on its axis. -/
theorem mem_blk (t : Fin cfg0.N) (i : S27x100000x64.Idx) :
    i ∈ ((cfg0.win 2).blk t).view.set ↔ ∀ a : Fin 3, win0_2.index t a * S1x20000x64.size a ≤ (i a).val ∧ (i a).val < win0_2.index t a * S1x20000x64.size a + S1x20000x64.size a := by
  show i ∈ ((View.whole main_v9).slice (win0_2.rect t)).set ↔ _
  rw [View.set_slice_whole, Rect.mem_set_unit]
  exact Iff.rfl

/-- Offset `a`, row `r` lies in the block of the point at (`a`, `r / 20000`): the 135 blocks tile the array. -/
theorem cover (i : S27x100000x64.Idx) : ∃ t : Fin cfg0.N, (cfg0.win 2).flush t = true ∧ i ∈ ((cfg0.win 2).blk t).view.set := by
  have hi0 : (i 0).val < 27 := (i 0).isLt
  have hi1 : (i 1).val < 100000 := (i 1).isLt
  have hi2 : (i 2).val < 64 := (i 2).isLt
  obtain ⟨t, ht⟩ := idx_onto ⟨(i 0).val, hi0⟩ ⟨(i 1).val / 20000, by omega⟩
  have q0 : win0_2.index t (0 : Fin 3) = (i 0).val := congrFun ht 0
  have q1 : win0_2.index t (1 : Fin 3) = (i 1).val / 20000 := congrFun ht 1
  have q2 : win0_2.index t (2 : Fin 3) = 0 := congrFun ht 2
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 20000 ≤ (i 1).val ∧ (i 1).val < win0_2.index t (1 : Fin 3) * 20000 + 20000; omega
  | ⟨2, _⟩ => show win0_2.index t (2 : Fin 3) * 64 ≤ (i 2).val ∧ (i 2).val < win0_2.index t (2 : Fin 3) * 64 + 64; omega

/-- After the region its output array is the whole-array sums of the arrays it found. -/
theorem final (c : Dev nD) :
    (dat0 V c).arrAt 2 cfg0.N = conv (V c main_v7) (V c main_v8) :=
  (dat0 V c).arrAt_eq_of_cover 2 (conv (V c main_v7) (V c main_v8))
    (fun t _ => flushed_eq V c t) cover

end Region

end Cert.KernelIdeal.Conv

end
-- ==== Proof.HostSide.lean ====
/-
  The host operations of the idealized kernel's @main, read as pure terms.

  Before the first region: the features are converted (a change of float format), the input map is
  normalised (a negative entry has the point count added) and used to gather rows, and the weights
  are converted.  Between the regions: the first region's output is flattened to [2700000, 64] and
  scatter-added into a zero array at the normalised output map, and the batch-norm parameters are folded into a
  scale `gamma · rsqrt(var + ε)` and a shift `beta − mean · scale`, each laid out as one row.
-/
import proofs.«168406_j75462575391265_1_alg».proof.Proof.Gen.KernelIdeal.Frame
import Idealize.ShloMosaic.Lib.StableHlo.Run

noncomputable section

namespace Cert.KernelIdeal.HostSide

open Cert.KernelIdeal Cert.KernelIdeal.Gen Idealize.ShloMosaic Idealize.ShloMosaic.TcCoe Idealize.SL.Sem
open Idealize.ShloMosaic.StableHlo

variable {F : FTy → Type} [FloatOps F]
variable (m : (ℓ : Loc nD τ sig) → Buf (Elt F) ℓ) (ρ : Dev nD → PrngReg)

/-- An index map with every negative entry wrapped by the point count, as a column of gather indices. -/
def gatherIdx (x6 : (⟨S27x100000, .i32⟩ : BufTy).Contents (Elt F)) : (⟨S27x100000x1, .i32⟩ : BufTy).Contents (Elt F) :=
  broadcastInDim S27x100000x1 ![0, 1] bcast_S27x100000_S27x100000x1_0_1
    (select (cmpi .slt x6 (broadcastInDim S27x100000 ![] bcast_S_S27x100000 (constantI S_ 32 0#32)))
      (addi x6 (broadcastInDim S27x100000 ![] bcast_S_S27x100000 (constantI S_ 32 200000#32))) x6)

/-- The gathered rows, as the first region finds them. -/
theorem V1_gathered (c : Dev nD) :
    V1 m ρ c main_v7
      = Host.gather gather_S200000x64_S27x100000x1_S27x100000x64_2_0_n_n_0_2_164
          (truncf .bf16 (m ((c : Thread nD τ).loc main_arg0)) bitsLt_bf16_f32)
          (gatherIdx (m ((c : Thread nD τ).loc main_arg6))) := by
  show StableHlo.after hostOps0 (W0 m ρ c) (Proc.devRef .tc main_v7) = _
  after_results <;> rfl

/-- The converted weights, as the first region finds them. -/
theorem V1_weights (c : Dev nD) :
    V1 m ρ c main_v8 = truncf .bf16 (m ((c : Thread nD τ).loc main_arg1)) bitsLt_bf16_f32 := by
  show StableHlo.after hostOps0 (W0 m ρ c) (Proc.devRef .tc main_v8) = _
  after_results <;> rfl

/-! ## Between the regions -/

/-- The first region writes none of @main's arguments and no host operation before it does: at the first region's exit
    an argument's buffer holds its launch contents. -/
theorem W2_arg (c : Dev nD) (b : Ref sig .tc) (hb : ∀ w, Pipeline.arrRef spec0 w ≠ b)
    (hops : ∀ op ∈ (hostOps0 : List (HloOp τ sig (Elt F))), (Proc.devRef .tc b : DevRef τ sig) ∉ op.writes) :
    W2 m ρ c (Proc.devRef .tc b) = m ((c : Thread nD τ).loc b) :=
  calc W2 m ρ c (Proc.devRef .tc b)
    _ = W1 m ρ c (Proc.devRef .tc b) := W2_of_ne m ρ c b hb
    _ = W0 m ρ c (Proc.devRef .tc b) := StableHlo.after_of_forall_not_mem (b := Proc.devRef .tc b) _ _ hops
    _ = m ((c : Thread nD τ).loc b) := rfl

/-- No operation of the first host stretch writes an argument other than through its own result buffer. -/
theorem hostOps0_keeps (b : Ref sig .tc)
    (h : b ≠ main_v0 ∧ b ≠ main_c ∧ b ≠ main_v1 ∧ b ≠ main_v2 ∧ b ≠ main_c_0 ∧ b ≠ main_v3 ∧ b ≠ main_v4 ∧ b ≠ main_v5
      ∧ b ≠ main_v6 ∧ b ≠ main_v7 ∧ b ≠ main_v8) :
    ∀ op ∈ (hostOps0 : List (HloOp τ sig (Elt F))), (Proc.devRef .tc b : DevRef τ sig) ∉ op.writes := by
  obtain ⟨h0, h1, h2, h3, h4, h5, h6, h7, h8, h9, h10⟩ := h
  refine List.forall_iff_forall_mem.mp ?_
  simp only [hostOps0, List.Forall, StableHlo.nullary_writes, StableHlo.unary_writes, StableHlo.binary_writes,
    StableHlo.ternary_writes, Finset.mem_singleton]
  exact ⟨StableHlo.devRef_ne_of_ne h0, StableHlo.devRef_ne_of_ne h1, StableHlo.devRef_ne_of_ne h2, StableHlo.devRef_ne_of_ne h3,
    StableHlo.devRef_ne_of_ne h4, StableHlo.devRef_ne_of_ne h5, StableHlo.devRef_ne_of_ne h6, StableHlo.devRef_ne_of_ne h7,
    StableHlo.devRef_ne_of_ne h8, StableHlo.devRef_ne_of_ne h9, StableHlo.devRef_ne_of_ne h10⟩

theorem W2_main_arg2 (c : Dev nD) : W2 m ρ c (Proc.devRef .tc main_arg2) = m ((c : Thread nD τ).loc main_arg2) :=
  W2_arg m ρ c main_arg2 (by decide) (hostOps0_keeps main_arg2 (by decide))
theorem W2_main_arg3 (c : Dev nD) : W2 m ρ c (Proc.devRef .tc main_arg3) = m ((c : Thread nD τ).loc main_arg3) :=
  W2_arg m ρ c main_arg3 (by decide) (hostOps0_keeps main_arg3 (by decide))
theorem W2_main_arg4 (c : Dev nD) : W2 m ρ c (Proc.devRef .tc main_arg4) = m ((c : Thread nD τ).loc main_arg4) :=
  W2_arg m ρ c main_arg4 (by decide) (hostOps0_keeps main_arg4 (by decide))
theorem W2_main_arg5 (c : Dev nD) : W2 m ρ c (Proc.devRef .tc main_arg5) = m ((c : Thread nD τ).loc main_arg5) :=
  W2_arg m ρ c main_arg5 (by decide) (hostOps0_keeps main_arg5 (by decide))
theorem W2_main_arg7 (c : Dev nD) : W2 m ρ c (Proc.devRef .tc main_arg7) = m ((c : Thread nD τ).loc main_arg7) :=
  W2_arg m ρ c main_arg7 (by decide) (hostOps0_keeps main_arg7 (by decide))

/-- At the first region's exit its output buffer holds what the grid points wrote back. -/
theorem W2_out (c : Dev nD) : W2 m ρ c (Proc.devRef .tc main_v9) = (dat0 (V1 m ρ) c).arrAt 2 cfg0.N :=
  W2_arr m ρ c 2

/-- An index map flattened, with every negative entry wrapped by the point count, as a column of scatter indices. -/
def scatterIdx (x7 : (⟨S27x100000, .i32⟩ : BufTy).Contents (Elt F)) : (⟨S2700000x1, .i32⟩ : BufTy).Contents (Elt F) :=
  broadcastInDim S2700000x1 ![0] bcast_S2700000_S2700000x1_0
    (select (cmpi .slt (shapeCast _ x7 shapeCasts_S27x100000_S2700000) (broadcastInDim S2700000 ![] bcast_S_S2700000 (constantI S_ 32 0#32)))
      (addi (shapeCast _ x7 shapeCasts_S27x100000_S2700000) (broadcastInDim S2700000 ![] bcast_S_S2700000 (constantI S_ 32 200000#32)))
      (shapeCast _ x7 shapeCasts_S27x100000_S2700000))

/-- The per-pair contributions, flattened and scatter-added into a zero array at the output map. -/
def scattered (x7 : (⟨S27x100000, .i32⟩ : BufTy).Contents (Elt F)) (contrib : (⟨S27x100000x64, .f32⟩ : BufTy).Contents (Elt F)) :
    (⟨S200000x64, .f32⟩ : BufTy).Contents (Elt F) :=
  Host.scatterAdd scatter_S200000x64_S2700000x1_S2700000x64_1_0_0_1
    (broadcastInDim S200000x64 ![] bcast_S_S200000x64 (constant S_ .f32 0x00000000#32))
    (scatterIdx x7) (shapeCast _ contrib shapeCasts_S27x100000x64_S2700000x64)

/-- The folded scale `gamma · rsqrt(var + ε)`. -/
def scale (x2 x5 : (⟨S64, .f32⟩ : BufTy).Contents (Elt F)) : (⟨S64, .f32⟩ : BufTy).Contents (Elt F) :=
  mulf x2 (Host.rsqrt (addf x5 (broadcastInDim S64 ![] bcast_S_S64 (constant S_ .f32 0x3727C5AC#32))))

/-- The folded shift `beta − mean · scale`. -/
def shift (x2 x3 x4 x5 : (⟨S64, .f32⟩ : BufTy).Contents (Elt F)) : (⟨S64, .f32⟩ : BufTy).Contents (Elt F) :=
  subf x3 (mulf x4 (scale x2 x5))

/-- The second region finds the scattered sums in its first input, -/
theorem V3_scattered (c : Dev nD) :
    V3 m ρ c main_v19
      = scattered (m ((c : Thread nD τ).loc main_arg7)) ((dat0 (V1 m ρ) c).arrAt 2 cfg0.N) := by
  show StableHlo.after hostOps1 (W2 m ρ c) (Proc.devRef .tc main_v19) = _
  after_results
  rw [W2_main_arg7, W2_out]
  rfl

/-- the scale as one row in its second, -/
theorem V3_scale (c : Dev nD) :
    V3 m ρ c main_v26
      = shapeCast _ (scale (m ((c : Thread nD τ).loc main_arg2)) (m ((c : Thread nD τ).loc main_arg5))) shapeCasts_S64_S1x64 := by
  show StableHlo.after hostOps1 (W2 m ρ c) (Proc.devRef .tc main_v26) = _
  after_results
  rw [W2_main_arg2, W2_main_arg5]
  rfl

/-- and the shift as one row in its third. -/
theorem V3_shift (c : Dev nD) :
    V3 m ρ c main_v27
      = shapeCast _ (shift (m ((c : Thread nD τ).loc main_arg2)) (m ((c : Thread nD τ).loc main_arg3))
          (m ((c : Thread nD τ).loc main_arg4)) (m ((c : Thread nD τ).loc main_arg5))) shapeCasts_S64_S1x64 := by
  show StableHlo.after hostOps1 (W2 m ρ c) (Proc.devRef .tc main_v27) = _
  after_results
  rw [W2_main_arg2, W2_main_arg3, W2_main_arg4, W2_main_arg5]
  rfl

end Cert.KernelIdeal.HostSide

end
-- ==== Proof.KernelValue.lean ====
/-
  The idealized kernel's result as ONE function of its arguments.

  Reading the run's last boundary at the result buffer: the second region leaves
  `max (S · scale + shift) 0` there, where `S` is what it found in its first input — the scatter-add, at the
  normalised output map, of the first region's output flattened —, the first region's output is the per-offset
  products of the gathered rows with the weights, and the gathered rows and the weights are the host's gather and
  format conversions of the arguments.
-/
import proofs.«168406_j75462575391265_1_alg».proof.Proof.KernelRun
import proofs.«168406_j75462575391265_1_alg».proof.Proof.Epilogue
import proofs.«168406_j75462575391265_1_alg».proof.Proof.Conv
import proofs.«168406_j75462575391265_1_alg».proof.Proof.HostSide

noncomputable section

namespace Cert.KernelIdeal.Whole

open Cert.KernelIdeal Cert.KernelIdeal.Gen Idealize.ShloMosaic Idealize.ShloMosaic.TcCoe Idealize.SL.Sem

/-- The gathered rows: the features (their float format changed) at the normalised input map. -/
def gathered (x0 : (⟨S200000x64, .f32⟩ : BufTy).Contents (Elt Ideal)) (x6 : (⟨S27x100000, .i32⟩ : BufTy).Contents (Elt Ideal)) :
    (⟨S27x100000x64, .bf16⟩ : BufTy).Contents (Elt Ideal) :=
  Host.gather gather_S200000x64_S27x100000x1_S27x100000x64_2_0_n_n_0_2_164
    (truncf (F := Ideal) (s := S200000x64) (φ := .f32) .bf16 x0 bitsLt_bf16_f32) (HostSide.gatherIdx x6)

/-- The per-pair contributions: each gathered row against its offset's weights. -/
def contrib (x0 : (⟨S200000x64, .f32⟩ : BufTy).Contents (Elt Ideal)) (x1 : (⟨S27x64x64, .f32⟩ : BufTy).Contents (Elt Ideal))
    (x6 : (⟨S27x100000, .i32⟩ : BufTy).Contents (Elt Ideal)) : S27x100000x64.Idx → EReal :=
  Conv.conv (gathered x0 x6) (truncf (F := Ideal) (s := S27x64x64) (φ := .f32) .bf16 x1 bitsLt_bf16_f32)

/-- The kernel's result array as a function of the eight argument arrays. -/
def value (x0 : (⟨S200000x64, .f32⟩ : BufTy).Contents (Elt Ideal)) (x1 : (⟨S27x64x64, .f32⟩ : BufTy).Contents (Elt Ideal))
    (x2 x3 x4 x5 : (⟨S64, .f32⟩ : BufTy).Contents (Elt Ideal)) (x6 x7 : (⟨S27x100000, .i32⟩ : BufTy).Contents (Elt Ideal)) :
    S200000x64.Idx → EReal :=
  Epilogue.bnRelu (HostSide.scattered x7 (contrib x0 x1 x6))
    (shapeCast _ (HostSide.scale x2 x5) shapeCasts_S64_S1x64)
    (shapeCast _ (HostSide.shift x2 x3 x4 x5) shapeCasts_S64_S1x64)

variable (m : (ℓ : Loc nD τ sig) → Buf (Elt Ideal) ℓ) (ρ : Dev nD → PrngReg)

/-- The last boundary's contents at the result buffer are that function of the launch contents of the arguments. -/
theorem result_eq (c : Dev nD) :
    W4 m ρ c (Proc.devRef .tc main_v28)
      = value (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) := by
  refine (W4_arr m ρ c 3).trans ?_
  rw [Epilogue.final (V3 m ρ) c, HostSide.V3_scattered, HostSide.V3_scale, HostSide.V3_shift, Conv.final (V1 m ρ) c,
    HostSide.V1_gathered, HostSide.V1_weights]
  rfl

/-- Every weakly fair execution of the idealized kernel terminates, nothing faulting, with the result buffer at
    `value` of the arguments and the arguments unchanged. -/
theorem run : θ_run defs (onTc (τ := τ) (main (F := Ideal))) ⟨m, fun _ => 0, ρ⟩ (fun r => ∀ c : Dev nD,
      r.2.mem ((c.tc : Thread nD τ).loc main_v28)
        = value (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result_eq m ρ c), (h c).2⟩) (RunV.run m ρ)

end Cert.KernelIdeal.Whole

end
-- ==== Proof.Bridge.lean ====
/-
  The reference's result is the kernel's function of the arguments.

  Operation by operation the reference computes: the same gather at the same normalised input map (the kernel's
  change of float format is the identity on exact values); one batched `dot_general` whose entry at offset `a`,
  row `p`, channel `o` is `∑ k, gathered a p k · weight a k o` — the sum the kernel's blocks hold —; the same
  flattening and scatter-add at the same normalised output map; the same folded scale and shift, laid out by two
  broadcasts where the kernel reads one stored row; and `max · 0`.  So the two results agree index by index.
-/
import proofs.«168406_j75462575391265_1_alg».proof.Proof.Gen.ReferenceIdeal.Read
import proofs.«168406_j75462575391265_1_alg».proof.Proof.KernelValue
import Idealize.ShloMosaic.Lib.ValueLayout

noncomputable section

namespace Cert.Bridge

open Idealize.ShloMosaic Idealize.ShloMosaic.TcCoe Idealize.SL.Sem
open Idealize.ShloMosaic.ValueIdx
open Cert.ReferenceIdeal Cert.ReferenceIdeal.Read

/-- The reference gathers the rows the kernel gathers. -/
theorem gather_eq (x0 : (⟨S200000x64, .f32⟩ : BufTy).Contents (Elt Ideal)) (x6 : (⟨S27x100000, .i32⟩ : BufTy).Contents (Elt Ideal)) :
    val_main_v6 (F := Ideal) x0 x6 = Cert.KernelIdeal.Whole.gathered x0 x6 := rfl

/-- The reference's batched product is, entry by entry, the sum the kernel's blocks hold. -/
theorem contrib_eq (x0 : (⟨S200000x64, .f32⟩ : BufTy).Contents (Elt Ideal)) (x1 : (⟨S27x64x64, .f32⟩ : BufTy).Contents (Elt Ideal))
    (x6 : (⟨S27x100000, .i32⟩ : BufTy).Contents (Elt Ideal)) :
    val_main_v7 (F := Ideal) x0 x1 x6 = Cert.KernelIdeal.Whole.contrib x0 x1 x6 := by
  funext i
  obtain ⟨a, p, o, rfl⟩ : ∃ (a : Fin 27) (p : Fin 100000) (o : Fin 64), i = ix3 a p o := ⟨i 0, i 1, i 2, eq_ix3 i⟩
  rw [val_main_v7_apply, gather_eq]
  show _ = ∑ k : Fin 64, Cert.KernelIdeal.Whole.gathered x0 x6 (ix3 a p k) * x1 (ix3 a k o)
  refine Finset.sum_congr rfl fun k _ => ?_
  have el : lidx_main_v7 (ix3 a p o) k = ix3 a p k := funext fun d => by
    match d with
    | ⟨0, _⟩ => rfl
    | ⟨1, _⟩ => rfl
    | ⟨2, _⟩ => rfl
  have er : ridx_main_v7 (ix3 a p o) k = ix3 a k o := funext fun d => by
    match d with
    | ⟨0, _⟩ => rfl
    | ⟨1, _⟩ => rfl
    | ⟨2, _⟩ => rfl
  rw [el, er]

/-- The reference scatter-adds the same contributions, flattened the same way, at the same normalised output map into the
    same zero array. -/
theorem scattered_eq (x0 : (⟨S200000x64, .f32⟩ : BufTy).Contents (Elt Ideal)) (x1 : (⟨S27x64x64, .f32⟩ : BufTy).Contents (Elt Ideal))
    (x6 x7 : (⟨S27x100000, .i32⟩ : BufTy).Contents (Elt Ideal)) :
    val_main_v17 (F := Ideal) x0 x1 x6 x7
      = Cert.KernelIdeal.HostSide.scattered x7 (Cert.KernelIdeal.Whole.contrib x0 x1 x6) := by
  unfold val_main_v17 val_main_v10
  rw [contrib_eq]
  rfl

/-- The reference's folded scale and shift are the kernel's. -/
theorem scale_eq (x2 x5 : (⟨S64, .f32⟩ : BufTy).Contents (Elt Ideal)) :
    val_main_v21 (F := Ideal) x2 x5 = Cert.KernelIdeal.HostSide.scale x2 x5 := rfl
theorem shift_eq (x2 x3 x4 x5 : (⟨S64, .f32⟩ : BufTy).Contents (Elt Ideal)) :
    val_main_v26 (F := Ideal) x2 x3 x4 x5 = Cert.KernelIdeal.HostSide.shift x2 x3 x4 x5 := rfl

/-- THE BRIDGE: the reference's result is the kernel's function of the eight arguments, index by index — at row `r`,
    channel `o` both are `max (S r o · scale o + shift o) 0` over the same scattered sums `S`. -/
theorem result_eq (x0 : (⟨S200000x64, .f32⟩ : BufTy).Contents (Elt Ideal)) (x1 : (⟨S27x64x64, .f32⟩ : BufTy).Contents (Elt Ideal))
    (x2 x3 x4 x5 : (⟨S64, .f32⟩ : BufTy).Contents (Elt Ideal)) (x6 x7 : (⟨S27x100000, .i32⟩ : BufTy).Contents (Elt Ideal)) :
    val_main_v30 (F := Ideal) x0 x1 x2 x3 x4 x5 x6 x7 = Cert.KernelIdeal.Whole.value x0 x1 x2 x3 x4 x5 x6 x7 := by
  funext i
  obtain ⟨r, o, rfl⟩ : ∃ (r : Fin 200000) (o : Fin 64), i = ix2 r o := ⟨i 0, i 1, eq_ix2 i⟩
  have e1 : idx_main_v22 (idx_main_v23 (ix2 r o)) = ix1 o := funext fun d => by
    match d with
    | ⟨0, _⟩ => rfl
  have e2 : idx_main_v27 (idx_main_v28 (ix2 r o)) = ix1 o := funext fun d => by
    match d with
    | ⟨0, _⟩ => rfl
  rw [val_main_v30_apply, val_main_v29_apply, val_main_v24_apply, val_main_v23_apply, val_main_v22_apply,
    val_main_v28_apply, val_main_v27_apply, val_main_call0_v0_apply, val_main_call0_cst_apply, scattered_eq,
    e1, e2, scale_eq, shift_eq]
  unfold Cert.KernelIdeal.Whole.value Cert.KernelIdeal.Epilogue.bnRelu Cert.KernelIdeal.Epilogue.bnReluAt
  rw [shapeCast_a_1a_apply, shapeCast_a_1a_apply]
  rfl

end Cert.Bridge

end
-- ==== Proof.lean ====
/-
  A sparse convolution block against its jnp reference, on exact (extended-real) values.

  Both programs compute, for a point cloud of 200000 points with 64 channels, 27 kernel offsets and 100000 (input
  point, output point) pairs per offset:
    gathered a p   = feats[in_map a p]                              (row gather; a negative index wraps)
    contrib a p o  = ∑ k, gathered a p k · weight a k o             (one 64 × 64 matrix per offset)
    S              = scatter-add of the 2700000 contribution rows into a zero [200000, 64] array at out_map
    result r o     = max (S r o · scale o + shift o) 0,  scale = gamma · rsqrt(var + ε),  shift = beta − mean · scale.
  The kernel converts the features and weights to a narrower float format before the gather and the product (the
  identity on exact values), computes `contrib` in a pipelined region of 27 × 5 blocks of 20000 rows, runs the
  scatter-add and the parameter folding as host operations, and applies scale, shift and clamp in a second region
  of 20 blocks of 10000 rows.  The reference is one batched product and whole-array elementwise operations.

  The frames of the two kernel programs are the generated ones.  The value of the idealized kernel is read off its run
  (Proof/KernelRun.lean: the run with the result buffer named; Proof/Conv.lean and Proof/Epilogue.lean: each region's
  output array as one function of the arrays it finds; Proof/HostSide.lean: the host operations as pure terms;
  Proof/KernelValue.lean: the four composed).  The reference's run and its read-at-an-index lemmas are generated;
  Proof/Bridge.lean shows its result is the same function of the arguments.  No law beyond reindexing a finite sum is
  used, so the finiteness of the inputs is never opened.
-/
import proofs.«168406_j75462575391265_1_alg».proof.Defs
import proofs.«168406_j75462575391265_1_alg».proof.Proof.Gen.Kernel
import proofs.«168406_j75462575391265_1_alg».proof.Proof.Gen.Kernel.Skeleton
import proofs.«168406_j75462575391265_1_alg».proof.Proof.Gen.Kernel.Launch
import proofs.«168406_j75462575391265_1_alg».proof.Proof.Gen.Kernel.Points
import proofs.«168406_j75462575391265_1_alg».proof.Proof.Gen.Kernel.Frame
import proofs.«168406_j75462575391265_1_alg».proof.Proof.Gen.KernelIdeal
import proofs.«168406_j75462575391265_1_alg».proof.Proof.Gen.KernelIdeal.Skeleton
import proofs.«168406_j75462575391265_1_alg».proof.Proof.Gen.KernelIdeal.Launch
import proofs.«168406_j75462575391265_1_alg».proof.Proof.Gen.KernelIdeal.Points
import proofs.«168406_j75462575391265_1_alg».proof.Proof.Gen.KernelIdeal.Frame
import proofs.«168406_j75462575391265_1_alg».proof.Proof.Gen.ReferenceIdeal
import proofs.«168406_j75462575391265_1_alg».proof.Proof.Gen.Pre_finite_inputs
import proofs.«168406_j75462575391265_1_alg».proof.Proof.Gen.ReferenceIdeal.Run
import proofs.«168406_j75462575391265_1_alg».proof.Proof.Gen.ReferenceIdeal.Read
import proofs.«168406_j75462575391265_1_alg».proof.Proof.KernelValue
import proofs.«168406_j75462575391265_1_alg».proof.Proof.Bridge
import Idealize.ShloMosaic.Adequacy
import Idealize.ShloMosaic.Init

noncomputable section

namespace Cert.Proof

open Idealize.ShloMosaic Idealize.SL.Sem

/-- The printed kernel runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on the arguments the idealized kernel ends with its result at the function
    `KernelIdeal.Whole.value` of the arguments, and the reference at its composed term of them, which is the same
    function (`Bridge.result_eq`). -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.Read.val_main_v30_eq, Cert.Bridge.result_eq, a0, a1, a2, a3, a4, a5, a6, a7]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
